-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel

variable [Facts]

def fn {F : FTy → Type} [FloatOps F] (main_arg0 : FVec F S4194304x5 .f32) (main_arg1 : FVec F S4194304x5 .f32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S4194304x5 .f32 := Host.absf main_arg1
  let main_cst_0 : FVec F S_ .f32 := constant S_ .f32 0x7F800000#32
  let main_v5 : FVec F S4194304x5 .f32 := broadcastInDim S4194304x5 ![] bcast_S_S4194304x5 main_cst_0
  let main_v6 : IVec S4194304x5 1 := cmpf .olt main_v4 main_v5
  let main_c_1 : IVec S_ 1 := constantI S_ 1 1#1
  let main_v7 : IVec S_ 1 := (fun x v => Host.reduce IntOp.andi x v reducesTo_S4194304x5_S_d0_1 h_S_) main_v6 main_c_1
  let main_v8 : IVec S_ 1 := andi main_v3 main_v7
  main_v8
-- ==== Kernel.lean ====
abbrev S4194304x5 : Shape := ⟨2, ![4194304, 5]⟩
abbrev S5x4194304 : Shape := ⟨2, ![5, 4194304]⟩
abbrev S5x8x524288 : Shape := ⟨3, ![5, 8, 524288]⟩
abbrev S40x524288 : Shape := ⟨2, ![40, 524288]⟩
abbrev S16x128 : Shape := ⟨2, ![16, 128]⟩
abbrev S40x16384 : Shape := ⟨2, ![40, 16384]⟩
abbrev S8x128 : Shape := ⟨2, ![8, 128]⟩
abbrev S8x16384 : Shape := ⟨2, ![8, 16384]⟩
abbrev S8 : Shape := ⟨1, ![8]⟩
abbrev S8x1 : Shape := ⟨2, ![8, 1]⟩
abbrev S1 : Shape := ⟨1, ![1]⟩
abbrev S1x1 : Shape := ⟨2, ![1, 1]⟩
abbrev S_ : Shape := ⟨0, ![]⟩

abbrev nBuf : Space → Nat
  | .hbm => 26
  | .vmem => 6
  | .smem => 0
  | _ => 0

abbrev bufTy : (tb : Table) → Fin (tcTables nBuf tb) → BufTy
  | .hbm, ⟨0, _⟩ => ⟨S4194304x5, .f32⟩
  | .hbm, ⟨1, _⟩ => ⟨S4194304x5, .f32⟩
  | .hbm, ⟨2, _⟩ => ⟨S5x4194304, .f32⟩
  | .hbm, ⟨3, _⟩ => ⟨S5x8x524288, .f32⟩
  | .hbm, ⟨4, _⟩ => ⟨S40x524288, .f32⟩
  | .hbm, ⟨5, _⟩ => ⟨S5x4194304, .f32⟩
  | .hbm, ⟨6, _⟩ => ⟨S5x8x524288, .f32⟩
  | .hbm, ⟨7, _⟩ => ⟨S40x524288, .f32⟩
  | .hbm, ⟨8, _⟩ => ⟨S16x128, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S40x16384, .f32⟩
  | .local _ .vmem, ⟨1, _⟩ => ⟨S40x16384, .f32⟩
  | .local _ .vmem, ⟨2, _⟩ => ⟨S40x16384, .f32⟩
  | .local _ .vmem, ⟨3, _⟩ => ⟨S40x16384, .f32⟩
  | .local _ .vmem, ⟨4, _⟩ => ⟨S8x128, .f32⟩
  | .local _ .vmem, ⟨5, _⟩ => ⟨S8x128, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S40x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4194304x5_S5x4194304_1_0 : S4194304x5.Transposes [1, 0] S5x4194304
  shapeCasts_S5x4194304_S5x8x524288 : S5x4194304.ShapeCasts S5x8x524288
  shapeCasts_S5x8x524288_S40x524288 : S5x8x524288.ShapeCasts S40x524288
  inb_S8x128_S8x128_0_0 : ∀ a, (![0, 0] : Fin 2 → Nat) a + S8x128.size a ≤ S8x128.size a
  h_S8x128 : 0 < S8x128.numel
  inb_S40x16384_S8x16384_0_0 : ∀ a, (![0, 0] : Fin 2 → Nat) a + S8x16384.size a ≤ S40x16384.size a
  h_S8x16384 : 0 < S8x16384.numel
  shapeCasts_S8x16384_S8x16384 : S8x16384.ShapeCasts S8x16384
  inb_S40x16384_S8x16384_8_0 : ∀ a, (![8, 0] : Fin 2 → Nat) a + S8x16384.size a ≤ S40x16384.size a
  inb_S40x16384_S8x16384_16_0 : ∀ a, (![16, 0] : Fin 2 → Nat) a + S8x16384.size a ≤ S40x16384.size a
  inb_S40x16384_S8x16384_24_0 : ∀ a, (![24, 0] : Fin 2 → Nat) a + S8x16384.size a ≤ S40x16384.size a
  inb_S40x16384_S8x16384_32_0 : ∀ a, (![32, 0] : Fin 2 → Nat) a + S8x16384.size a ≤ S40x16384.size a
  reduces_S8x16384_S8 : S8x16384.Reduces [1] S8
  shapeCasts_S8_S8x1 : S8.ShapeCasts S8x1
  reduces_S8x1_S1 : S8x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S8x128_S1x1_0_1 : ∀ a, (![0, 1] : Fin 2 → Nat) a + S1x1.size a ≤ S8x128.size a
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_0_1 : S16x128.Slices ![0, 1] S1x1
  slices_S16x128_S1x1_8_1 : S16x128.Slices ![8, 1] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x16384.size a ≤ S40x524288.size a
  hwx0_0 : ∀ i : grid0.Coords, EltTy.bits .f32 = 32 ∨ (Rect.block (s := S40x524288) S40x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x16384.size a ≤ S40x524288.size a
  hwx0_1 : ∀ i : grid0.Coords, EltTy.bits .f32 = 32 ∨ (Rect.block (s := S40x524288) S40x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v2) S40x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S40x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x5 : Shape := ⟨2, ![4194304, 5]⟩
abbrev S4194304x4 : Shape := ⟨2, ![4194304, 4]⟩
abbrev S_ : Shape := ⟨0, ![]⟩
abbrev S4194304x1 : Shape := ⟨2, ![4194304, 1]⟩
abbrev S4194304 : Shape := ⟨1, ![4194304]⟩

abbrev nBuf : Space → Nat
  | .hbm => 108
  | .vmem => 0
  | .smem => 0
  | _ => 0

abbrev bufTy : (tb : Table) → Fin (tcTables nBuf tb) → BufTy
  | .hbm, ⟨0, _⟩ => ⟨S4194304x5, .f32⟩
  | .hbm, ⟨1, _⟩ => ⟨S4194304x5, .f32⟩
  | .hbm, ⟨2, _⟩ => ⟨S4194304x4, .f32⟩
  | .hbm, ⟨3, _⟩ => ⟨S4194304x4, .f32⟩
  | .hbm, ⟨4, _⟩ => ⟨S4194304x4, .f32⟩
  | .hbm, ⟨5, _⟩ => ⟨S_, .f32⟩
  | .hbm, ⟨6, _⟩ => ⟨S4194304x4, .f32⟩
  | .hbm, ⟨7, _⟩ => ⟨S4194304x4, .f32⟩
  | .hbm, ⟨8, _⟩ => ⟨S_, .f32⟩
  | .hbm, ⟨9, _⟩ => ⟨S4194304x4, .f32⟩
  | .hbm, ⟨10, _⟩ => ⟨S4194304x4, .f32⟩
  | .hbm, ⟨11, _⟩ => ⟨S4194304x4, .f32⟩
  | .hbm, ⟨12, _⟩ => ⟨S4194304x1, .f32⟩
  | .hbm, ⟨13, _⟩ => ⟨S4194304, .f32⟩
  | .hbm, ⟨14, _⟩ => ⟨S4194304x1, .f32⟩
  | .hbm, ⟨15, _⟩ => ⟨S4194304, .f32⟩
  | .hbm, ⟨16, _⟩ => ⟨S4194304, .f32⟩
  | .hbm, ⟨17, _⟩ => ⟨S4194304, .f32⟩
  | .hbm, ⟨18, _⟩ => ⟨S4194304x1, .f32⟩
  | .hbm, ⟨19, _⟩ => ⟨S4194304, .f32⟩
  | .hbm, ⟨20, _⟩ => ⟨S4194304x1, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S4194304x1, .f32⟩
  | .hbm, ⟨26, _⟩ => ⟨S4194304, .f32⟩
  | .hbm, ⟨27, _⟩ => ⟨S4194304x1, .f32⟩
  | .hbm, ⟨28, _⟩ => ⟨S4194304, .f32⟩
  | .hbm, ⟨29, _⟩ => ⟨S4194304, .f32⟩
  | .hbm, ⟨30, _⟩ => ⟨S4194304x1, .f32⟩
  | .hbm, ⟨31, _⟩ => ⟨S4194304, .f32⟩
  | .hbm, ⟨32, _⟩ => ⟨S4194304x1, .f32⟩
  | .hbm, ⟨33, _⟩ => ⟨S4194304, .f32⟩
  | .hbm, ⟨34, _⟩ => ⟨S4194304, .f32⟩
  | .hbm, ⟨35, _⟩ => ⟨S4194304, .f32⟩
  | .hbm, ⟨36, _⟩ => ⟨S4194304x1, .f32⟩
  | .hbm, ⟨37, _⟩ => ⟨S4194304, .f32⟩
  | .hbm, ⟨38, _⟩ => ⟨S4194304x1, .f32⟩
  | .hbm, ⟨39, _⟩ => ⟨S4194304, .f32⟩
  | .hbm, ⟨40, _⟩ => ⟨S4194304, .f32⟩
  | .hbm, ⟨41, _⟩ => ⟨S4194304x1, .f32⟩
  | .hbm, ⟨42, _⟩ => ⟨S4194304, .f32⟩
  | .hbm, ⟨43, _⟩ => ⟨S4194304x1, .f32⟩
  | .hbm, ⟨44, _⟩ => ⟨S4194304, .f32⟩
  | .hbm, ⟨45, _⟩ => ⟨S4194304, .f32⟩
  | .hbm, ⟨46, _⟩ => ⟨S4194304x1, .f32⟩
  | .hbm, ⟨47, _⟩ => ⟨S4194304, .f32⟩
  | .hbm, ⟨48, _⟩ => ⟨S4194304x1, .f32⟩
  | .hbm, ⟨49, _⟩ => ⟨S4194304, .f32⟩
  | .hbm, ⟨50, _⟩ => ⟨S4194304, .f32⟩
  | .hbm, ⟨51, _⟩ => ⟨S4194304x1, .f32⟩
  | .hbm, ⟨52, _⟩ => ⟨S4194304, .f32⟩
  | .hbm, ⟨53, _⟩ => ⟨S4194304x1, .f32⟩
  | .hbm, ⟨54, _⟩ => ⟨S4194304, .f32⟩
  | .hbm, ⟨55, _⟩ => ⟨S4194304, .f32⟩
  | .hbm, ⟨56, _⟩ => ⟨S4194304x1, .f32⟩
  | .hbm, ⟨57, _⟩ => ⟨S4194304, .f32⟩
  | .hbm, ⟨58, _⟩ => ⟨S4194304, .f32⟩
  | .hbm, ⟨59, _⟩ => ⟨S4194304x1, .f32⟩
  | .hbm, ⟨60, _⟩ => ⟨S4194304, .f32⟩
  | .hbm, ⟨61, _⟩ => ⟨S4194304, .f32⟩
  | .hbm, ⟨62, _⟩ => ⟨S4194304x1, .f32⟩
  | .hbm, ⟨63, _⟩ => ⟨S4194304, .f32⟩
  | .hbm, ⟨64, _⟩ => ⟨S4194304, .f32⟩
  | .hbm, ⟨65, _⟩ => ⟨S4194304x1, .f32⟩
  | .hbm, ⟨66, _⟩ => ⟨S4194304, .f32⟩
  | .hbm, ⟨67, _⟩ => ⟨S4194304, .f32⟩
  | .hbm, ⟨68, _⟩ => ⟨S4194304, .f32⟩
  | .hbm, ⟨69, _⟩ => ⟨S4194304, .f32⟩
  | .hbm, ⟨70, _⟩ => ⟨S4194304, .f32⟩
  | .hbm, ⟨71, _⟩ => ⟨S_, .f32⟩
  | .hbm, ⟨72, _⟩ => ⟨S4194304, .f32⟩
  | .hbm, ⟨73, _⟩ => ⟨S4194304, .i1⟩
  | .hbm, ⟨74, _⟩ => ⟨S4194304, .f32⟩
  | .hbm, ⟨75, _⟩ => ⟨S4194304, .f32⟩
  | .hbm, ⟨76, _⟩ => ⟨S4194304, .f32⟩
  | .hbm, ⟨77, _⟩ => ⟨S_, .f32⟩
  | .hbm, ⟨78, _⟩ => ⟨S4194304, .f32⟩
  | .hbm, ⟨79, _⟩ => ⟨S4194304, .f32⟩
  | .hbm, ⟨80, _⟩ => ⟨S_, .f32⟩
  | .hbm, ⟨81, _⟩ => ⟨S4194304, .f32⟩
  | .hbm, ⟨82, _⟩ => ⟨S4194304, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S4194304x1, .f32⟩
  | .hbm, ⟨88, _⟩ => ⟨S4194304, .f32⟩
  | .hbm, ⟨89, _⟩ => ⟨S4194304x1, .f32⟩
  | .hbm, ⟨90, _⟩ => ⟨S4194304, .f32⟩
  | .hbm, ⟨91, _⟩ => ⟨S_, .f32⟩
  | .hbm, ⟨92, _⟩ => ⟨S4194304, .f32⟩
  | .hbm, ⟨93, _⟩ => ⟨S4194304, .f32⟩
  | .hbm, ⟨94, _⟩ => ⟨S4194304, .f32⟩
  | .hbm, ⟨95, _⟩ => ⟨S4194304, .f32⟩
  | .hbm, ⟨96, _⟩ => ⟨S4194304, .f32⟩
  | .hbm, ⟨97, _⟩ => ⟨S4194304, .f32⟩
  | .hbm, ⟨98, _⟩ => ⟨S4194304, .f32⟩
  | .hbm, ⟨99, _⟩ => ⟨S4194304, .f32⟩
  | .hbm, ⟨100, _⟩ => ⟨S4194304, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_cst_1 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_cst_2 : Ref sig .tc := ⟨.hbm, 77, rfl⟩
abbrev main_call0_v0 : Ref sig .tc := ⟨.hbm, 78, rfl⟩
abbrev main_v72 : Ref sig .tc := ⟨.hbm, 79, rfl⟩
abbrev main_cst_3 : Ref sig .tc := ⟨.hbm, 80, rfl⟩
abbrev main_v73 : Ref sig .tc := ⟨.hbm, 81, rfl⟩
abbrev main_v74 : Ref sig .tc := ⟨.hbm, 82, rfl⟩
abbrev main_cst_4 : Ref sig .tc := ⟨.hbm, 83, rfl⟩
abbrev main_v75 : Ref sig .tc := ⟨.hbm, 84, rfl⟩
abbrev main_cst_5 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_7 : Ref sig .tc := ⟨.hbm, 101, rfl⟩
abbrev main_v90 : Ref sig .tc := ⟨.hbm, 102, rfl⟩
abbrev main_cst_8 : Ref sig .tc := ⟨.hbm, 103, rfl⟩
abbrev main_v91 : Ref sig .tc := ⟨.hbm, 104, rfl⟩
abbrev main_cst_9 : Ref sig .tc := ⟨.hbm, 105, rfl⟩
abbrev main_v92 : Ref sig .tc := ⟨.hbm, 106, rfl⟩
abbrev main_v93 : Ref sig .tc := ⟨.hbm, 107, rfl⟩

abbrev nD : Nat := 1
abbrev τ : Topo := Topo.v7x

variable {F : FTy → Type} [FloatOps F]

class Facts₀ : Prop where
  slices_S4194304x5_S4194304x4_0_1 : S4194304x5.Slices ![0, 1] S4194304x4
  bcast_S_S4194304x4 : S_.BroadcastsInDim S4194304x4 (![] : Fin 0 → Fin S4194304x4.rank)
  slices_S4194304x4_S4194304x1_0_2 : S4194304x4.Slices ![0, 2] S4194304x1
  shapeCasts_S4194304x1_S4194304 : S4194304x1.ShapeCasts S4194304
  slices_S4194304x4_S4194304x1_0_0 : S4194304x4.Slices ![0, 0] S4194304x1
  slices_S4194304x4_S4194304x1_0_3 : S4194304x4.Slices ![0, 3] S4194304x1
  slices_S4194304x4_S4194304x1_0_1 : S4194304x4.Slices ![0, 1] S4194304x1
  bcast_S_S4194304 : S_.BroadcastsInDim S4194304 (![] : Fin 0 → Fin S4194304.rank)
  reducesTo_S4194304_S_d0 : S4194304.ReducesTo [0] S_
  h_S_ : 0 < S_.numel
  slices_S4194304x5_S4194304x1_0_0 : S4194304x5.Slices ![0, 0] S4194304x1

variable [Facts₀]

class Facts : Prop extends Facts₀ where

variable [Facts]
-- ==== Proof.HostLayout.lean ====
/-
  The arrays the region works on, and the block it sees at each step.

  Before the region each [4194304, 5] argument x is transposed to [5, 4194304], split along the long axis into
  [5, 8, 524288] and merged to [40, 524288]. Row 8k + s, column j of the result holds x[s*524288 + j, k]: column k of
  x, cut into eight consecutive stretches of 524288 rows, stretch s on row 8k + s. The block of an input window at step
  t is the 16384 columns from t*16384 on, all 40 rows: its element (8k + s, l) is x[s*524288 + t*16384 + l, k].
-/
import proofs.«124549_j10067403341969_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.HostLayout

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]

/-- The packing of a [4194304, 5] array into [40, 524288]: transpose, split, merge. -/
def pack {α : Type} (x : S4194304x5.Idx → α) : S40x524288.Idx → α :=
  shapeCast S40x524288 (shapeCast S5x8x524288 (transpose S5x4194304 [1, 0] x transposes_S4194304x5_S5x4194304_1_0)
    shapeCasts_S5x4194304_S5x8x524288) shapeCasts_S5x8x524288_S40x524288

/-- Row 8k + s, column j of the packed array is x[s*524288 + j, k]. -/
theorem pack_apply {α : Type} (x : S4194304x5.Idx → α) (k : Fin 5) (s : Fin 8) (j : Fin 524288)
    (hr : 8 * k.val + s.val < 40) (hn : s.val * 524288 + j.val < 4194304) :
    pack x (ix2 (⟨8 * k.val + s.val, hr⟩ : Fin 40) j) = x (ix2 (⟨s.val * 524288 + j.val, hn⟩ : Fin 4194304) k) := by
  unfold pack
  refine (shapeCast_apply _ shapeCasts_S5x8x524288_S40x524288 _ (ix3 k s j) ?_).trans ?_
  · rewrite [Shape.rowMajor_val_three, Shape.rowMajor_val_two]
    show (k.val * 8 + s.val) * 524288 + j.val = (8 * k.val + s.val) * 524288 + j.val
    omega
  refine (shapeCast_apply _ shapeCasts_S5x4194304_S5x8x524288 _ (ix2 k (⟨s.val * 524288 + j.val, hn⟩ : Fin 4194304)) ?_).trans ?_
  · rewrite [Shape.rowMajor_val_three, Shape.rowMajor_val_two]
    show k.val * 4194304 + (s.val * 524288 + j.val) = (k.val * 8 + s.val) * 524288 + j.val
    omega
  exact transpose_apply [1, 0] x transposes_S4194304x5_S5x4194304_1_0 _ (ix2 (⟨s.val * 524288 + j.val, hn⟩ : Fin 4194304) k)
    (fun b => match b with
      | ⟨0, _⟩ => rfl
      | ⟨1, _⟩ => rfl)

variable (m : (ℓ : Loc nD τ sig) → Buf (Elt F) ℓ)

/-- The region finds the first window's array at the packing of the first argument, -/
theorem V_packed0 (c : Dev nD) :
    (V m c main_v2 : S40x524288.Idx → Elt F .f32) = pack (m ((c : Thread nD τ).loc main_arg0)) := by
  show StableHlo.after hostOps0 (fun b => m (c, b)) (Proc.devRef .tc main_v2) = _
  after_results
  rfl
/-- and the second window's at the packing of the second. -/
theorem V_packed1 (c : Dev nD) :
    (V m c main_v5 : S40x524288.Idx → Elt F .f32) = pack (m ((c : Thread nD τ).loc main_arg1)) := by
  show StableHlo.after hostOps0 (fun b => m (c, b)) (Proc.devRef .tc main_v5) = _
  after_results
  rfl

/-- The input windows' block index at point t is (0, t); the output window's is (t / 16, 0). -/
theorem index_in0 : ∀ t : Fin cfg0.N, win0_0.index t 0 = 0 ∧ win0_0.index t 1 = t.val :=
  (by decide +kernel : ∀ t : Fin grid0.N, win0_0.index t 0 = 0 ∧ win0_0.index t 1 = t.val)
theorem index_in1 : ∀ t : Fin cfg0.N, win0_1.index t 0 = 0 ∧ win0_1.index t 1 = t.val :=
  (by decide +kernel : ∀ t : Fin grid0.N, win0_1.index t 0 = 0 ∧ win0_1.index t 1 = t.val)

/-- The block of the first input window at point t, read off ANY array of the window's shape at (r, l): the array at
    column t*16384 + l of row r. -/
theorem blk0_read (t : Fin cfg0.N) (A : S40x524288.Idx → Elt F .f32) (r : Fin 40) (l : Fin 16384)
    (hj : t.val * 16384 + l.val < 524288) :
    ((cfg0.win 0).blk t).view.read (Elt F) A (ix2 r l) = A (ix2 r (⟨t.val * 16384 + l.val, hj⟩ : Fin 524288)) := by
  rw [View.read_apply]
  show A _ = A _
  refine congrArg A ?_
  funext a
  apply Fin.ext
  match a with
  | ⟨0, _⟩ => show win0_0.index t 0 * 40 + 1 * r.val = r.val; rw [(index_in0 t).1]; omega
  | ⟨1, _⟩ => show win0_0.index t 1 * 16384 + 1 * l.val = t.val * 16384 + l.val; rw [(index_in0 t).2]; omega
/-- The second input window's likewise. -/
theorem blk1_read (t : Fin cfg0.N) (A : S40x524288.Idx → Elt F .f32) (r : Fin 40) (l : Fin 16384)
    (hj : t.val * 16384 + l.val < 524288) :
    ((cfg0.win 1).blk t).view.read (Elt F) A (ix2 r l) = A (ix2 r (⟨t.val * 16384 + l.val, hj⟩ : Fin 524288)) := by
  rw [View.read_apply]
  show A _ = A _
  refine congrArg A ?_
  funext a
  apply Fin.ext
  match a with
  | ⟨0, _⟩ => show win0_1.index t 0 * 40 + 1 * r.val = r.val; rw [(index_in1 t).1]; omega
  | ⟨1, _⟩ => show win0_1.index t 1 * 16384 + 1 * l.val = t.val * 16384 + l.val; rw [(index_in1 t).2]; omega

/-- The arrays the two input windows stage are the two packed arguments. -/
theorem A_packed0 (c : Dev nD) :
    (V m c (Pipeline.arrRef spec0 0) : S40x524288.Idx → Elt F .f32) = pack (m ((c : Thread nD τ).loc main_arg0)) :=
  V_packed0 m c
theorem A_packed1 (c : Dev nD) :
    (V m c (Pipeline.arrRef spec0 1) : S40x524288.Idx → Elt F .f32) = pack (m ((c : Thread nD τ).loc main_arg1)) :=
  V_packed1 m c

/-- The first input block at step t, read at (r, l): the packed first argument at column t*16384 + l. -/
theorem iblk0_apply (c : Dev nD) (t : Fin cfg0.N) (r : Fin 40) (l : Fin 16384) (hj : t.val * 16384 + l.val < 524288) :
    (iblk m c 0 t : Vec F S40x16384 .f32) (ix2 r l)
      = pack (m ((c : Thread nD τ).loc main_arg0)) (ix2 r (⟨t.val * 16384 + l.val, hj⟩ : Fin 524288)) := by
  unfold iblk
  refine (blk0_read t _ r l hj).trans ?_
  exact congrFun (A_packed0 m c) _
/-- The second input block likewise. -/
theorem iblk1_apply (c : Dev nD) (t : Fin cfg0.N) (r : Fin 40) (l : Fin 16384) (hj : t.val * 16384 + l.val < 524288) :
    (iblk m c 1 t : Vec F S40x16384 .f32) (ix2 r l)
      = pack (m ((c : Thread nD τ).loc main_arg1)) (ix2 r (⟨t.val * 16384 + l.val, hj⟩ : Fin 524288)) := by
  unfold iblk
  refine (blk1_read t _ r l hj).trans ?_
  exact congrFun (A_packed1 m c) _

end Cert.KernelIdeal.HostLayout

end
-- ==== Proof.Pieces.lean ====
/-
  What one run of the body leaves at the two elements of its output block that carry the running totals.

  The body's stores, in order: in the first step of a run the whole [8, 128] block is set to zero; then element (0, 0)
  receives "what was there, plus this step's box-loss sum" and element (0, 1) "what was there, plus this step's
  objectness-loss sum". The two sums are functions of the two [40, 16384] input blocks only, each through its five
  [8, 16384] row groups. So after the first step of a run the two elements hold zero plus the step's sums, after any
  other step what the step before left plus the step's sums; every other element of the block is not looked at here.
-/
import proofs.«124549_j10067403341969_2_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem Idealize.ShloMosaic.ValueIdx

variable {F : FTy → Type} [FloatOps F]

/-- The two one-element rectangles of the output block the totals sit in, and the whole block. -/
abbrev R00 : Rect S8x128 := Rect.unit ![0, 0] ![1, 1] inb_S8x128_S1x1_0_0
abbrev R01 : Rect S8x128 := Rect.unit ![0, 1] ![1, 1] inb_S8x128_S1x1_0_1
abbrev Rall : Rect S8x128 := Rect.unit ![0, 0] ![8, 128] inb_S8x128_S8x128_0_0

/-- The one index of a [1, 1] vector, and the two block indices under the two rectangles. -/
abbrev o11 : S1x1.Idx := ix2 (0 : Fin 1) (0 : Fin 1)
abbrev b00 : S8x128.Idx := ix2 (0 : Fin 8) (0 : Fin 128)
abbrev b01 : S8x128.Idx := ix2 (0 : Fin 8) (1 : Fin 128)

/-- Row group `k` (rows 8k … 8k+7) of a [40, 16384] input block, as the body loads it. -/
abbrev tile0 (x : Vec F S40x16384 .f32) : Vec F S8x16384 .f32 := View.ld x (Rect.unit ![0, 0] ![8, 16384] inb_S40x16384_S8x16384_0_0)
abbrev tile1 (x : Vec F S40x16384 .f32) : Vec F S8x16384 .f32 := View.ld x (Rect.unit ![8, 0] ![8, 16384] inb_S40x16384_S8x16384_8_0)
abbrev tile2 (x : Vec F S40x16384 .f32) : Vec F S8x16384 .f32 := View.ld x (Rect.unit ![16, 0] ![8, 16384] inb_S40x16384_S8x16384_16_0)
abbrev tile3 (x : Vec F S40x16384 .f32) : Vec F S8x16384 .f32 := View.ld x (Rect.unit ![24, 0] ![8, 16384] inb_S40x16384_S8x16384_24_0)
abbrev tile4 (x : Vec F S40x16384 .f32) : Vec F S8x16384 .f32 := View.ld x (Rect.unit ![32, 0] ![8, 16384] inb_S40x16384_S8x16384_32_0)

/-- The [1, 1] vector of the float zero. -/
abbrev zero11 : Vec F S1x1 .f32 := broadcast S1x1 (Scalar.ofBits .f32 0x00000000#32)

/-- One step's new box-loss total: the old one plus the step's sum, from the two input blocks. -/
def iouStep (x0 x1 : Vec F S40x16384 .f32) (old : Vec F S1x1 .f32) : Vec F S1x1 .f32 :=
  k0_pay16 (k0_pay5 (tile1 x0)) (k0_pay6 (tile2 x0)) (k0_pay7 (tile3 x0)) (k0_pay8 (tile4 x0))
    (k0_pay9 (tile1 x1)) (k0_pay10 (tile2 x1)) (k0_pay11 (tile3 x1)) (k0_pay12 (tile4 x1))
    (k0_pay13 (tile1 x0) (tile2 x0) (tile3 x0) (tile4 x0)) (k0_pay14 (tile1 x1) (tile2 x1) (tile3 x1) (tile4 x1)) old

/-- One step's new objectness-loss total. -/
def bceStep (x0 x1 : Vec F S40x16384 .f32) (old : Vec F S1x1 .f32) : Vec F S1x1 .f32 :=
  k0_pay1 (k0_pay15 (k0_pay3 (tile0 x0)) (k0_pay4 (tile0 x1))) (k0_pay17 old)

/-- The two block indices are where the two rectangles put their one element. -/
theorem b00_eq : b00 = R00.emb o11 := by
  funext a
  match a with
  | ⟨0, _⟩ => rfl
  | ⟨1, _⟩ => rfl
theorem b01_eq : b01 = R01.emb o11 := by
  funext a
  match a with
  | ⟨0, _⟩ => rfl
  | ⟨1, _⟩ => rfl

/-- Element (0, 0) is not under the rectangle at (0, 1), nor the other way round. -/
theorem b00_not_mem : R00.emb o11 ∉ R01.set := by
  rw [Rect.mem_set_unit]
  intro h
  exact absurd (h 1).1 (by decide)
theorem b01_not_mem : R01.emb o11 ∉ R00.set := by
  rw [Rect.mem_set_unit]
  intro h
  exact absurd (h 1).2 (by decide)

theorem hz : (![0, 0] : Fin 2 → Nat) = fun _ => 0 := funext fun a => by fin_cases a <;> rfl

/-- The zeroed block reads zero at every element. -/
theorem canon_zero (y : S8x128.Idx) :
    View.canon [(⟨Rall, k0_pay2 (F := F)⟩ : View.Piece (Elt F) S8x128 .f32)] y = Scalar.ofBits .f32 0x00000000#32 := by
  have h := congrFun (View.canon_unit_zero (Val := Elt F) (S := S8x128) (e := EltTy.f32) hz inb_S8x128_S8x128_0_0 (k0_pay2 (F := F))) y
  exact h.trans rfl

/-- A one-element load of a zeroed block reads zero, -/
theorem readCov_zero (v : View sig .tc .vmem S8x128 .f32) :
    v.readCov [(⟨Rall, k0_pay2 (F := F)⟩ : View.Piece (Elt F) S8x128 .f32)] R00.toLoadRect = zero11 := by
  rw [View.readCov_eq_canon']
  funext j
  exact canon_zero _
/-- also at (0, 1) after a store to (0, 0). -/
theorem readCov_zero' (v : View sig .tc .vmem S8x128 .f32) (w : R00.shape.Idx → Elt F .f32) :
    v.readCov [(⟨R00, w⟩ : View.Piece (Elt F) S8x128 .f32), ⟨Rall, k0_pay2 (F := F)⟩] R01.toLoadRect = zero11 := by
  rw [View.readCov_eq_canon']
  funext j
  have hnot : R01.toLoadRect.idx j ∉ R00.set := by
    rw [Rect.mem_set_unit]
    intro h
    have h2 : 1 + 1 * (j 1).val < 0 + 1 := (h 1).2
    omega
  show View.canon _ (R01.toLoadRect.idx j) = _
  rw [View.canon_cons_of_not_mem _ _ hnot]
  exact canon_zero _

variable (c : Dev nD) (i : grid0.Coords) (a2 : Memref sig .tc .vmem S40x16384 .f32) (h2 : a2.IsWhole)
  (a3 : Memref sig .tc .vmem S40x16384 .f32) (h3 : a3.IsWhole) (a4 : Memref sig .tc .vmem S8x128 .f32) (h4 : a4.IsWhole)

/-- The stores of a later step of a run, last first. -/
theorem pieces_later (hc : ¬cond0_0 i) (x0 x1 : Vec F S40x16384 .f32) (xo2 : Vec F S8x128 .f32) :
    (kernelRun0_B c i a2 h2 a3 h3 a4 h4 hc x0 x1 xo2).1
      = [⟨R01, bceStep x0 x1 (View.ld xo2 R01)⟩, ⟨R00, iouStep x0 x1 (View.ld xo2 R00)⟩] := by
  unfold kernelRun0_B
  dsimp only
  sl_unfold_words
  simp only [View.readAt_eq_ld, h2.read_unread, h3.read_unread, h4.read_unread]
  rfl

/-- The stores of the first step of a run, last first. -/
theorem pieces_first (hc : cond0_0 i) (x0 x1 : Vec F S40x16384 .f32) :
    (kernelRun0_A c i a2 h2 a3 h3 a4 h4 hc x0 x1).1
      = [⟨R01, bceStep x0 x1 zero11⟩, ⟨R00, iouStep x0 x1 zero11⟩, ⟨Rall, k0_pay2⟩] := by
  unfold kernelRun0_A
  dsimp only
  sl_unfold_words
  simp only [View.readAt_eq_ld, h2.read_unread, h3.read_unread, readCov_zero, readCov_zero']
  rfl

/-- After a later step, element (0, 0) holds the step's box-loss total over what was there; -/
theorem later_00 (hc : ¬cond0_0 i) (x0 x1 : Vec F S40x16384 .f32) (xo2 : Vec F S8x128 .f32) :
    out0_B_2 c i a2 h2 a3 h3 a4 h4 hc x0 x1 xo2 b00 = iouStep x0 x1 (View.ld xo2 R00) o11 := by
  unfold out0_B_2
  rw [pieces_later, b00_eq, View.writes_cons,
    View.read_slice_write_of_not_mem R01 _ _ _ (by rw [Rect.map_emb_univ]; exact b00_not_mem)]
  exact View.read_writes_cons_emb _ _ R00 _ [] o11
/-- and element (0, 1) the step's objectness-loss total over what was there. -/
theorem later_01 (hc : ¬cond0_0 i) (x0 x1 : Vec F S40x16384 .f32) (xo2 : Vec F S8x128 .f32) :
    out0_B_2 c i a2 h2 a3 h3 a4 h4 hc x0 x1 xo2 b01 = bceStep x0 x1 (View.ld xo2 R01) o11 := by
  unfold out0_B_2
  rw [pieces_later, b01_eq]
  exact View.read_writes_cons_emb _ _ R01 _ _ o11

/-- After the first step of a run they hold the step's totals over zero. -/
theorem first_00 (hc : cond0_0 i) (x0 x1 : Vec F S40x16384 .f32) :
    out0_A_2 c i a2 h2 a3 h3 a4 h4 hc x0 x1 b00 = iouStep x0 x1 zero11 o11 := by
  unfold out0_A_2
  rw [pieces_first]
  refine (View.read_writes_junk_apply_eq_canon _ _ _).trans ?_
  rw [b00_eq, View.canon_cons_of_not_mem _ _ b00_not_mem]
  exact View.canon_cons_emb R00 _ _ o11
theorem first_01 (hc : cond0_0 i) (x0 x1 : Vec F S40x16384 .f32) :
    out0_A_2 c i a2 h2 a3 h3 a4 h4 hc x0 x1 b01 = bceStep x0 x1 zero11 o11 := by
  unfold out0_A_2
  rw [pieces_first]
  refine (View.read_writes_junk_apply_eq_canon _ _ _).trans ?_
  rw [b01_eq]
  exact View.canon_cons_emb R01 _ _ o11

end Cert.KernelIdeal.Pieces

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.LibRegroup.lean ====
/-
  Two laws of finite sums in a commutative additive monoid (so over the extended reals, with no finiteness asked).

  * A quantity that is RESET at the first point of every run of J consecutive points and that ADDS that point's
    contribution to what the point before left at every other point is, j points into a run, the sum of the run's
    first j + 1 contributions.
  * A sum over A·B·C·D consecutive naturals, regrouped: the outer sums over the first and the LAST digit of the
    mixed-radix expansion n = ((a·B + b)·C + c)·D + d, the inner sums over the two middle digits. This is the order in
    which a per-lane accumulator over a two-level grid collects a flat array: lane d of core a sums over the
    sequential steps b and the rows c of each block.
-/
import Mathlib.Algebra.BigOperators.Fin
import proofs.«124549_j10067403341969_2_alg».proof.Proof.LibSumBlocks

namespace Cert.LibRegroup

/-- The running sum of a run of points: `f` is reset to the point's contribution `P` where `n % J = 0` and adds it
    elsewhere; at point `J·q + j` it holds the contributions of points `J·q … J·q + j`. -/
theorem run_sum {ι β : Type*} [AddCommMonoid β] {N : ℕ} (J : ℕ) (f P : (n : ℕ) → n < N → ι → β)
    (h0 : ∀ (n : ℕ) (h : n < N) (i : ι), n % J = 0 → f n h i = P n h i)
    (hs : ∀ (n : ℕ) (h : n + 1 < N) (i : ι), ¬(n + 1) % J = 0 →
      f (n + 1) h i = f n (Nat.lt_of_succ_lt h) i + P (n + 1) h i)
    (q : ℕ) (i : ι) : ∀ (j : ℕ) (_ : j < J) (h : J * q + j < N),
      f (J * q + j) h i = ∑ s : Fin (j + 1), P (J * q + s.val) (by have := s.isLt; omega) i
  | 0, _, h => by
    rw [Fin.sum_univ_castSucc, Fin.sum_univ_zero, zero_add]
    exact h0 _ h i (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Fin.sum_univ_castSucc]
    have ih := run_sum J f P h0 hs q i j (Nat.lt_of_succ_lt hj) (Nat.lt_of_succ_lt h)
    have step := hs (J * q + j) h i hne
    rw [ih] at step
    exact step

/-- A sum over `A·B·C·D` consecutive naturals by the digits of `n = ((a·B + b)·C + c)·D + d`, the first and the last
    digit outermost. -/
theorem sum_range_four {β : Type*} [AddCommMonoid β] (g : ℕ → β) (A B C D : ℕ) :
    ∑ n ∈ Finset.range (A * B * C * D), g n
      = ∑ a ∈ Finset.range A, ∑ d ∈ Finset.range D, ∑ b ∈ Finset.range B, ∑ c ∈ Finset.range C,
          g (((a * B + b) * C + c) * D + d) := by
  rw [Cert.LibSumBlocks.sum_range_blocks g D (A * B * C),
    Cert.LibSumBlocks.sum_range_blocks (fun x => ∑ d ∈ Finset.range D, g (x * D + d)) C (A * B),
    Cert.LibSumBlocks.sum_range_blocks (fun x => ∑ c ∈ Finset.range C, ∑ d ∈ Finset.range D, g ((x * C + c) * D + d)) B A]
  refine Finset.sum_congr rfl fun a _ => ?_
  calc ∑ b ∈ Finset.range B, ∑ c ∈ Finset.range C, ∑ d ∈ Finset.range D, g (((a * B + b) * C + c) * D + d)
      = ∑ b ∈ Finset.range B, ∑ d ∈ Finset.range D, ∑ c ∈ Finset.range C, g (((a * B + b) * C + c) * D + d) :=
        Finset.sum_congr rfl fun b _ => Finset.sum_comm
    _ = ∑ d ∈ Finset.range D, ∑ b ∈ Finset.range B, ∑ c ∈ Finset.range C, g (((a * B + b) * C + c) * D + d) :=
        Finset.sum_comm

/-- The same over index types: the whole sum over `Fin N` with `N = A·B·C·D`. -/
theorem sum_fin_four {β : Type*} [AddCommMonoid β] (g : ℕ → β) (A B C D N : ℕ) (hN : N = A * B * C * D) :
    ∑ n : Fin N, g n.val
      = ∑ a : Fin A, ∑ d : Fin D, ∑ b : Fin B, ∑ c : Fin C, g (((a.val * B + b.val) * C + c.val) * D + d.val) := by
  subst hN
  rw [← Finset.sum_range g, sum_range_four g A B C D,
    Finset.sum_range (fun a => ∑ d ∈ Finset.range D, ∑ b ∈ Finset.range B, ∑ c ∈ Finset.range C, g (((a * B + b) * C + c) * D + d))]
  refine Finset.sum_congr rfl fun a _ => ?_
  rw [Finset.sum_range (fun d => ∑ b ∈ Finset.range B, ∑ c ∈ Finset.range C, g (((a.val * B + b) * C + c) * D + d))]
  refine Finset.sum_congr rfl fun d _ => ?_
  rw [Finset.sum_range (fun b => ∑ c ∈ Finset.range C, g (((a.val * B + b) * C + c) * D + d.val))]
  refine Finset.sum_congr rfl fun b _ => ?_
  rw [Finset.sum_range (fun c => g (((a.val * B + b.val) * C + c) * D + d.val))]

end Cert.LibRegroup
-- ==== Proof.LossSpec.lean ====
/-
  The loss both programs compute, stated once over the extended reals, and the one law of finite sums that joins the
  two arrangements of it.

  Row n of the two [N, 5] arrays (N = 4194304) gives two numbers. From the objectness logit l and label y (column 0) the
  binary cross-entropy term  max(l, 0) - l*y + log1p(exp(0 - |l|)).  From the four box logits (columns 1..4, through the
  logistic function) and the four box targets, one minus the intersection-over-union of the two boxes, the quotient
  replaced by 0 where the overlap is negative. The loss is  c * (sum of the first terms / N) + (sum of the second / N).

  One program sums the N terms of each kind in a single pass over n. The other walks n = s*524288 + t*16384 + l by the
  digits t (32 steps, in two runs of 16 whose totals are added at the end), s (8 rows) and l (16384 lanes): per step a sum
  over l, then over s, added to a running total. Addition of extended reals is commutative and associative, so the two
  totals agree at every input, finite or not (`digit_sum`).
-/
import Idealize.ShloMosaic.PureOps.Ideal.Laws
import Idealize.ShloMosaic.Lib.IdealHost
import proofs.«124549_j10067403341969_2_alg».proof.Proof.LibRegroup

noncomputable section

open scoped BigOperators

namespace Cert.LossSpec

open Idealize.ShloMosaic

/-- The float zero and one, as the words both programs carry. -/
abbrev zeroW : EReal := Ideal.ofBits .f32 0x00000000#32
abbrev oneW : EReal := Ideal.ofBits .f32 0x3F800000#32

/-- The absolute value on the extended reals. -/
abbrev absE (x : EReal) : EReal := max x (-x)

/-- The overlap of the predicted box (corners s0..s3, ordered per axis by min / max) with the target box t0..t3: the
    product of the two signed side lengths of the intersection. -/
def overlap (s0 s1 s2 s3 t0 t1 t2 t3 : EReal) : EReal :=
  (min (max s2 s0) t2 - max (min s2 s0) t0) * (min (max s1 s3) t3 - max (min s1 s3) t1)

/-- The area of the union: target area plus predicted area minus the overlap. -/
def unionArea (s0 s1 s2 s3 t0 t1 t2 t3 : EReal) : EReal :=
  (t2 - t0) * (t3 - t1) + absE (s2 - s0) * absE (s3 - s1) - overlap s0 s1 s2 s3 t0 t1 t2 t3

/-- One minus the intersection-over-union, the quotient read as 0 where the overlap is negative. -/
def iouLoss (s0 s1 s2 s3 t0 t1 t2 t3 : EReal) : EReal :=
  oneW - Scalar.select (Ideal.cmp .olt (overlap s0 s1 s2 s3 t0 t1 t2 t3) zeroW) zeroW
    (Ideal.div (overlap s0 s1 s2 s3 t0 t1 t2 t3) (unionArea s0 s1 s2 s3 t0 t1 t2 t3))

/-- Row term of the box loss, from a row `p` of logits and a row `t` of targets. -/
def iouTerm (p t : Fin 5 → EReal) : EReal :=
  iouLoss (Ideal.logistic (p 1)) (Ideal.logistic (p 2)) (Ideal.logistic (p 3)) (Ideal.logistic (p 4)) (t 1) (t 2) (t 3) (t 4)

/-- Row term of the objectness loss: the stable form of the binary cross-entropy with logits. -/
def bceTerm (p t : Fin 5 → EReal) : EReal :=
  max (p 0) zeroW - p 0 * t 0 + Ideal.log1p (Ideal.exp (zeroW - absE (p 0)))

/-- The logistic function is 1 / (1 + exp(-x)) with the float one for both ones. -/
theorem logistic_eq (x : EReal) : Ideal.div oneW (oneW + Ideal.exp (-x)) = Ideal.logistic x := by
  unfold Ideal.logistic
  rw [show oneW = 1 from Ideal.ofBits_one_f32]

/-- Subtracting from the float zero is negation. -/
theorem zeroW_sub (x : EReal) : zeroW - x = -x := by
  rw [show zeroW = 0 from Ideal.ofBits_zero_f32, sub_eq_add_neg, zero_add]

/-- Adding to the float zero changes nothing. -/
theorem zeroW_add (x : EReal) : zeroW + x = x := by
  rw [show zeroW = 0 from Ideal.ofBits_zero_f32, zero_add]

/-- Row `n` of an [N, 5] array, for every natural `n` (rows past the array are never read). -/
def rowOf (x : (⟨2, ![4194304, 5]⟩ : Shape).Idx → EReal) (n : ℕ) : Fin 5 → EReal :=
  fun k => if h : n < 4194304 then x (ValueIdx.ix2 ⟨n, h⟩ k) else 0

theorem rowOf_lt (x : (⟨2, ![4194304, 5]⟩ : Shape).Idx → EReal) (n : ℕ) (h : n < 4194304) (k : Fin 5) :
    rowOf x n k = x (ValueIdx.ix2 ⟨n, h⟩ k) := dif_pos h

/-- The loss from the two totals: the float 0.2 times the mean objectness term, plus the mean box term; the divisor
    is the float 4194304, and both constants stay the words the programs carry. -/
def lossOf (sumIou sumBce : EReal) : EReal :=
  Ideal.ofBits .f32 0x3E4CCCCD#32 * Ideal.div sumBce (Ideal.ofBits .f32 0x4A800000#32)
    + Ideal.div sumIou (Ideal.ofBits .f32 0x4A800000#32)

/-- The two totals over all rows, from the rows of the two arrays. -/
def iouTotal (P T : ℕ → Fin 5 → EReal) : EReal := ∑ n ∈ Finset.range 4194304, iouTerm (P n) (T n)
def bceTotal (P T : ℕ → Fin 5 → EReal) : EReal := ∑ n ∈ Finset.range 4194304, bceTerm (P n) (T n)

/-- A sum over A*B*C*D consecutive naturals by the digits of n = ((a*B + b)*C + c)*D + d, the two middle digits
    outermost. -/
theorem sum_range_digits {β : Type*} [AddCommMonoid β] (F : ℕ → β) (A B C D : ℕ) :
    ∑ n ∈ Finset.range (A * B * C * D), F n
      = ∑ b ∈ Finset.range B, ∑ c ∈ Finset.range C, ∑ a ∈ Finset.range A, ∑ d ∈ Finset.range D,
          F (((a * B + b) * C + c) * D + d) := by
  rw [Cert.LibSumBlocks.sum_range_blocks F D (A * B * C),
    Cert.LibSumBlocks.sum_range_blocks (fun x => ∑ d ∈ Finset.range D, F (x * D + d)) C (A * B),
    Cert.LibSumBlocks.sum_range_blocks (fun x => ∑ c ∈ Finset.range C, ∑ d ∈ Finset.range D, F ((x * C + c) * D + d)) B A]
  rw [Finset.sum_comm]
  refine Finset.sum_congr rfl fun b _ => ?_
  rw [Finset.sum_comm]

/-- THE TWO ARRANGEMENTS AGREE. The terms F n, n below 4194304, summed step by step — step t = 16*q + g of run q adds
    the sum over the 8 rows s and the 16384 lanes l of F (s*524288 + t*16384 + l) — and the two runs' totals added, are
    the one sum over n. -/
theorem digit_sum {β : Type*} [AddCommMonoid β] (F : ℕ → β) :
    (∑ g : Fin 16, ∑ s : Fin 8, ∑ l : Fin 16384, F (s.val * 524288 + (16 * 0 + g.val) * 16384 + l.val))
      + (∑ g : Fin 16, ∑ s : Fin 8, ∑ l : Fin 16384, F (s.val * 524288 + (16 * 1 + g.val) * 16384 + l.val))
      = ∑ n ∈ Finset.range 4194304, F n := by
  have key : ∀ q : ℕ, (∑ g : Fin 16, ∑ s : Fin 8, ∑ l : Fin 16384, F (s.val * 524288 + (16 * q + g.val) * 16384 + l.val))
      = ∑ c ∈ Finset.range 16, ∑ a ∈ Finset.range 8, ∑ d ∈ Finset.range 16384, F (((a * 2 + q) * 16 + c) * 16384 + d) := by
    intro q
    rw [Finset.sum_range (fun c => ∑ a ∈ Finset.range 8, ∑ d ∈ Finset.range 16384, F (((a * 2 + q) * 16 + c) * 16384 + d))]
    refine Finset.sum_congr rfl fun g _ => ?_
    rw [Finset.sum_range (fun a => ∑ d ∈ Finset.range 16384, F (((a * 2 + q) * 16 + g.val) * 16384 + d))]
    refine Finset.sum_congr rfl fun s _ => ?_
    rw [Finset.sum_range (fun d => F (((s.val * 2 + q) * 16 + g.val) * 16384 + d))]
    refine Finset.sum_congr rfl fun l _ => ?_
    refine congrArg F ?_
    omega
  have two : ∀ G : ℕ → β, ∑ b ∈ Finset.range 2, G b = G 0 + G 1 := fun G => by
    rw [Finset.sum_range_succ, Finset.sum_range_one]
  rw [key 0, key 1, show (4194304 : ℕ) = 8 * 2 * 16 * 16384 from by norm_num, sum_range_digits F 8 2 16 16384, two]

end Cert.LossSpec

end
-- ==== Proof.BlockSums.lean ====
/-
  What one grid step adds to the two running totals, at the ideal instance.

  The body reduces an [8, 16384] tile of row terms first along the lanes and then along the eight rows, each time
  from the zero word, and adds the result to the one element it read from its output block. Read at that element:
  the old value plus the double sum over (row s, lane l) of the tile. The tile is, element by element, the
  intersection-over-union term of eight tiles (four predicted corners, four target corners) for the first total,
  and the cross-entropy term of two tiles (logit, label) for the second.
-/
import proofs.«124549_j10067403341969_2_alg».proof.Proof.Gen.KernelIdeal.Skeleton
import proofs.«124549_j10067403341969_2_alg».proof.Proof.LossSpec
import Idealize.ShloMosaic.Lib.ValueIdx
import Idealize.ShloMosaic.Lib.Pipeline.Value
import Idealize.ShloMosaic.PureOps.Ideal.Laws

noncomputable section

open scoped BigOperators

namespace Cert.KernelIdeal.BlockSums

open Cert.KernelIdeal Cert.KernelIdeal.Gen Idealize.ShloMosaic Idealize.ShloMosaic.ValueIdx Cert.LossSpec

/-- The one index of a [1, 1] vector. -/
abbrev o11 : S1x1.Idx := ix2 (0 : Fin 1) (0 : Fin 1)

/-- A lane sum followed by a row sum of an [8, 16384] tile, kept as a [1, 1] vector, holds the double sum over rows and
    lanes of the tile. -/
theorem tile_sum (v : FVec Ideal S8x16384 .f32) :
    shapeCast S1x1 (multiReduction .add [0] S1 (shapeCast S8x1 (multiReduction .add [1] S8 v 0x00000000#32
      reduces_S8x16384_S8 (.inl rfl) rfl) shapeCasts_S8_S8x1) 0x00000000#32 reduces_S8x1_S1 (.inl rfl) rfl) shapeCasts_S1_S1x1 o11
      = ∑ s : Fin 8, ∑ l : Fin 16384, v (ix2 s l) := by
  refine (shapeCast_apply _ shapeCasts_S1_S1x1 o11 (ix1 (0 : Fin 1))
    (by rewrite [Shape.rowMajor_val_one, Shape.rowMajor_val_two]; rfl)).trans ?_
  refine (Ideal.multiReduction_add_single _ 0x00000000#32 reduces_S8x1_S1 (.inl rfl) rfl (ix1 (0 : Fin 1))).trans ?_
  show ∑ s : Fin 8, _ = _
  refine Finset.sum_congr rfl fun s _ => ?_
  refine (shapeCast_apply _ shapeCasts_S8_S8x1 _ (ix1 s)
    (by rewrite [Shape.rowMajor_val_one, Shape.rowMajor_val_two]; show s.val = s.val * 1 + 0; omega)).trans ?_
  refine (Ideal.multiReduction_add_single v 0x00000000#32 reduces_S8x16384_S8 (.inl rfl) rfl (ix1 s)).trans ?_
  show ∑ l : Fin 16384, _ = _
  refine Finset.sum_congr rfl fun l _ => congrArg v ?_
  funext a
  match a with
  | ⟨0, _⟩ => rfl
  | ⟨1, _⟩ => rfl

/-- The box-loss payload read at its one element: the element it loaded, plus the tile's sum of one minus the
    intersection-over-union of the predicted corners `s0 … s3` and the target corners `t0 … t3`. -/
theorem iou_payload (s0 s1 s2 s3 t0 t1 t2 t3 : FVec Ideal S8x16384 .f32) (old : Vec Ideal S1x1 .f32) :
    k0_pay16 s0 s1 s2 s3 t0 t1 t2 t3 (mulf (absf (subf s2 s0)) (absf (subf s3 s1))) (mulf (subf t2 t0) (subf t3 t1)) old o11
      = old o11 + ∑ s : Fin 8, ∑ l : Fin 16384,
          iouLoss (s0 (ix2 s l)) (s1 (ix2 s l)) (s2 (ix2 s l)) (s3 (ix2 s l)) (t0 (ix2 s l)) (t1 (ix2 s l)) (t2 (ix2 s l)) (t3 (ix2 s l)) := by
  unfold k0_pay16
  dsimp only
  refine (addf_apply _ _ o11).trans ?_
  refine congrArg₂ (· + ·) (congrFun (shapeCast_self old _) o11) ?_
  refine (tile_sum _).trans ?_
  refine Finset.sum_congr rfl fun s _ => Finset.sum_congr rfl fun l _ => ?_
  rfl

/-- The objectness-loss payload read at its one element: the element it loaded, plus the tile's sum of the
    cross-entropy term of logit `x` and label `y`. -/
theorem bce_payload (x y : FVec Ideal S8x16384 .f32) (old : FVec Ideal S1x1 .f32) :
    k0_pay1 (k0_pay15 x y) old o11
      = old o11 + ∑ s : Fin 8, ∑ l : Fin 16384,
          (max (x (ix2 s l)) zeroW - x (ix2 s l) * y (ix2 s l) + Ideal.log1p (Ideal.exp (zeroW - absE (x (ix2 s l))))) := by
  unfold k0_pay1 k0_pay15
  dsimp only
  refine (addf_apply _ _ o11).trans ?_
  refine congrArg₂ (· + ·) rfl ?_
  refine (tile_sum _).trans ?_
  refine Finset.sum_congr rfl fun s _ => Finset.sum_congr rfl fun l _ => ?_
  rfl

end Cert.KernelIdeal.BlockSums

end
-- ==== Proof.StepValue.lean ====
/-
  One step's two new totals, at the ideal instance, as sums of the row terms.

  Element (8k + s, l) of an input block is entry k of "row (s, l)" of the block: five numbers, one per row group. The
  step's box-loss sum is the sum over (s, l) of the intersection-over-union term of row (s, l) of the first block
  against row (s, l) of the second; its objectness-loss sum the sum of the cross-entropy terms of the same rows. Each
  is added to the element the step found.
-/
import proofs.«124549_j10067403341969_2_alg».proof.Proof.Pieces
import proofs.«124549_j10067403341969_2_alg».proof.Proof.BlockSums
import proofs.«124549_j10067403341969_2_alg».proof.Proof.LossSpec

set_option maxRecDepth 16384

noncomputable section

open scoped BigOperators

namespace Cert.KernelIdeal.StepValue

open Cert.KernelIdeal Cert.KernelIdeal.Gen Cert.KernelIdeal.Pieces Cert.LossSpec
open Idealize.ShloMosaic Idealize.ShloMosaic.ValueIdx

/-- Row (s, l) of a [40, 16384] block: its entries on rows s, 8 + s, 16 + s, 24 + s, 32 + s, lane l. -/
def blockRow (x : Vec Ideal S40x16384 .f32) (s : Fin 8) (l : Fin 16384) : Fin 5 → EReal :=
  fun k => x (ix2 (⟨8 * k.val + s.val, by have := k.isLt; have := s.isLt; omega⟩ : Fin 40) l)

/-- Row group k of the block, at (s, l), is entry k of row (s, l). -/
theorem tile0_apply (x : Vec Ideal S40x16384 .f32) (s : Fin 8) (l : Fin 16384) : tile0 x (ix2 s l) = blockRow x s l 0 :=
  congrArg x (funext fun a => match a with
    | ⟨0, _⟩ => Fin.ext (by show 0 + 1 * s.val = 8 * 0 + s.val; omega)
    | ⟨1, _⟩ => Fin.ext (by show 0 + 1 * l.val = l.val; omega))
theorem tile1_apply (x : Vec Ideal S40x16384 .f32) (s : Fin 8) (l : Fin 16384) : tile1 x (ix2 s l) = blockRow x s l 1 :=
  congrArg x (funext fun a => match a with
    | ⟨0, _⟩ => Fin.ext (by show 8 + 1 * s.val = 8 * 1 + s.val; omega)
    | ⟨1, _⟩ => Fin.ext (by show 0 + 1 * l.val = l.val; omega))
theorem tile2_apply (x : Vec Ideal S40x16384 .f32) (s : Fin 8) (l : Fin 16384) : tile2 x (ix2 s l) = blockRow x s l 2 :=
  congrArg x (funext fun a => match a with
    | ⟨0, _⟩ => Fin.ext (by show 16 + 1 * s.val = 8 * 2 + s.val; omega)
    | ⟨1, _⟩ => Fin.ext (by show 0 + 1 * l.val = l.val; omega))
theorem tile3_apply (x : Vec Ideal S40x16384 .f32) (s : Fin 8) (l : Fin 16384) : tile3 x (ix2 s l) = blockRow x s l 3 :=
  congrArg x (funext fun a => match a with
    | ⟨0, _⟩ => Fin.ext (by show 24 + 1 * s.val = 8 * 3 + s.val; omega)
    | ⟨1, _⟩ => Fin.ext (by show 0 + 1 * l.val = l.val; omega))
theorem tile4_apply (x : Vec Ideal S40x16384 .f32) (s : Fin 8) (l : Fin 16384) : tile4 x (ix2 s l) = blockRow x s l 4 :=
  congrArg x (funext fun a => match a with
    | ⟨0, _⟩ => Fin.ext (by show 32 + 1 * s.val = 8 * 4 + s.val; omega)
    | ⟨1, _⟩ => Fin.ext (by show 0 + 1 * l.val = l.val; omega))

/-- The box-loss total after a step: what the step found, plus the sum over the block's rows of the
    intersection-over-union term. -/
theorem iouStep_eq (x0 x1 : Vec Ideal S40x16384 .f32) (old : Vec Ideal S1x1 .f32) :
    iouStep x0 x1 old o11 = old o11 + ∑ s : Fin 8, ∑ l : Fin 16384, iouTerm (blockRow x0 s l) (blockRow x1 s l) := by
  have h := BlockSums.iou_payload (k0_pay5 (tile1 x0)) (k0_pay6 (tile2 x0)) (k0_pay7 (tile3 x0)) (k0_pay8 (tile4 x0))
    (k0_pay9 (tile1 x1)) (k0_pay10 (tile2 x1)) (k0_pay11 (tile3 x1)) (k0_pay12 (tile4 x1)) old
  refine (show iouStep x0 x1 old o11 = _ from h).trans ?_
  refine congrArg (old o11 + ·) (Finset.sum_congr rfl fun s _ => Finset.sum_congr rfl fun l _ => ?_)
  have e5 : k0_pay5 (tile1 x0) (ix2 s l) = Ideal.logistic (blockRow x0 s l 1) := by
    unfold k0_pay5; rw [shapeCast_self]; exact congrArg Ideal.logistic (tile1_apply x0 s l)
  have e6 : k0_pay6 (tile2 x0) (ix2 s l) = Ideal.logistic (blockRow x0 s l 2) := by
    unfold k0_pay6; rw [shapeCast_self]; exact congrArg Ideal.logistic (tile2_apply x0 s l)
  have e7 : k0_pay7 (tile3 x0) (ix2 s l) = Ideal.logistic (blockRow x0 s l 3) := by
    unfold k0_pay7; rw [shapeCast_self]; exact congrArg Ideal.logistic (tile3_apply x0 s l)
  have e8 : k0_pay8 (tile4 x0) (ix2 s l) = Ideal.logistic (blockRow x0 s l 4) := by
    unfold k0_pay8; rw [shapeCast_self]; exact congrArg Ideal.logistic (tile4_apply x0 s l)
  have e9 : k0_pay9 (tile1 x1) (ix2 s l) = blockRow x1 s l 1 := by
    unfold k0_pay9; rw [shapeCast_self]; exact tile1_apply x1 s l
  have e10 : k0_pay10 (tile2 x1) (ix2 s l) = blockRow x1 s l 2 := by
    unfold k0_pay10; rw [shapeCast_self]; exact tile2_apply x1 s l
  have e11 : k0_pay11 (tile3 x1) (ix2 s l) = blockRow x1 s l 3 := by
    unfold k0_pay11; rw [shapeCast_self]; exact tile3_apply x1 s l
  have e12 : k0_pay12 (tile4 x1) (ix2 s l) = blockRow x1 s l 4 := by
    unfold k0_pay12; rw [shapeCast_self]; exact tile4_apply x1 s l
  rw [e5, e6, e7, e8, e9, e10, e11, e12]
  rfl

/-- The objectness-loss total after a step: what the step found, plus the sum over the block's rows of the
    cross-entropy term. -/
theorem bceStep_eq (x0 x1 : Vec Ideal S40x16384 .f32) (old : Vec Ideal S1x1 .f32) :
    bceStep x0 x1 old o11 = old o11 + ∑ s : Fin 8, ∑ l : Fin 16384, bceTerm (blockRow x0 s l) (blockRow x1 s l) := by
  have h := BlockSums.bce_payload (k0_pay3 (tile0 x0)) (k0_pay4 (tile0 x1)) (k0_pay17 old)
  refine (show bceStep x0 x1 old o11 = _ from h).trans ?_
  refine congrArg₂ (· + ·) ?_ (Finset.sum_congr rfl fun s _ => Finset.sum_congr rfl fun l _ => ?_)
  · unfold k0_pay17; rw [shapeCast_self]
  have e3 : k0_pay3 (tile0 x0) (ix2 s l) = blockRow x0 s l 0 := by
    unfold k0_pay3; rw [shapeCast_self]; exact tile0_apply x0 s l
  have e4 : k0_pay4 (tile0 x1) (ix2 s l) = blockRow x1 s l 0 := by
    unfold k0_pay4; rw [shapeCast_self]; exact tile0_apply x1 s l
  rw [e3, e4]
  rfl

end Cert.KernelIdeal.StepValue

end
-- ==== Proof.Accumulate.lean ====
/-
  The two running totals over the grid, and what the result array ends holding.

  Step t (t = 0 … 31) sees rows n = s*524288 + t*16384 + l of the two arguments (s = 0 … 7, l = 0 … 16383) and adds the
  sums of their box-loss and objectness-loss terms to elements (0, 0) and (0, 1) of its output block, which the first step
  of each run of 16 (t = 0, 16) starts from zero. So after step 16q + 15 the two elements hold the sums over the run's 16
  steps. The block is written back to rows 8q … 8q+7 of the [16, 128] result after that step and at no other: the result's
  elements (0, 0), (0, 1) hold run 0's totals and (8, 0), (8, 1) run 1's.
-/
import proofs.«124549_j10067403341969_2_alg».proof.Proof.HostLayout
import proofs.«124549_j10067403341969_2_alg».proof.Proof.StepValue
import Idealize.ShloMosaic.Lib.Pipeline.Value

set_option maxRecDepth 16384

noncomputable section

open scoped BigOperators

namespace Cert.KernelIdeal.Accumulate

open Cert.KernelIdeal Cert.KernelIdeal.Gen Cert.KernelIdeal.Pieces Cert.KernelIdeal.StepValue Cert.KernelIdeal.HostLayout
open Cert.LossSpec Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The rows of the two arguments as launched. -/
abbrev rowsP : ℕ → Fin 5 → EReal := rowOf (m ((c : Thread nD τ).loc main_arg0))
abbrev rowsT : ℕ → Fin 5 → EReal := rowOf (m ((c : Thread nD τ).loc main_arg1))

/-- The sums step n adds: over the 8 rows and 16384 lanes of its blocks. -/
def stepIou (n : ℕ) : EReal :=
  ∑ s : Fin 8, ∑ l : Fin 16384, iouTerm (rowsP m c (s.val * 524288 + n * 16384 + l.val)) (rowsT m c (s.val * 524288 + n * 16384 + l.val))
def stepBce (n : ℕ) : EReal :=
  ∑ s : Fin 8, ∑ l : Fin 16384, bceTerm (rowsP m c (s.val * 524288 + n * 16384 + l.val)) (rowsT m c (s.val * 524288 + n * 16384 + l.val))

/-- The rows a step sees are rows of the arguments: the index arithmetic, over plain naturals. -/
theorem row_bounds (s t l : ℕ) (hs : s < 8) (ht : t < 32) (hl : l < 16384) :
    t * 16384 + l < 524288 ∧ s * 524288 + (t * 16384 + l) < 4194304 := by
  constructor <;> omega

/-- Row (s, l) of the first input block at step t is row s*524288 + t*16384 + l of the first argument, -/
theorem blockRow0 (t : Fin cfg0.N) (s : Fin 8) (l : Fin 16384) :
    blockRow (iblk m c 0 t) s l = rowsP m c (s.val * 524288 + t.val * 16384 + l.val) := by
  have hN : t.val < 32 := lt_of_lt_of_eq t.isLt (show cfg0.N = 32 from N_0)
  have hs : s.val < 8 := s.isLt
  have hl : l.val < 16384 := l.isLt
  have hj : t.val * 16384 + l.val < 524288 := (row_bounds s.val t.val l.val hs hN hl).1
  have hn : s.val * 524288 + (t.val * 16384 + l.val) < 4194304 := (row_bounds s.val t.val l.val hs hN hl).2
  funext k
  have hk : k.val < 5 := k.isLt
  have hr : 8 * k.val + s.val < 40 := by omega
  unfold blockRow
  refine (iblk0_apply m c t _ l hj).trans ?_
  refine (pack_apply _ k s (⟨t.val * 16384 + l.val, hj⟩ : Fin 524288) hr hn).trans ?_
  refine (rowOf_lt _ _ hn k).symm.trans ?_
  exact congrFun (congrArg (rowOf _) (by omega)) k
/-- and of the second block, of the second argument. -/
theorem blockRow1 (t : Fin cfg0.N) (s : Fin 8) (l : Fin 16384) :
    blockRow (iblk m c 1 t) s l = rowsT m c (s.val * 524288 + t.val * 16384 + l.val) := by
  have hN : t.val < 32 := lt_of_lt_of_eq t.isLt (show cfg0.N = 32 from N_0)
  have hs : s.val < 8 := s.isLt
  have hl : l.val < 16384 := l.isLt
  have hj : t.val * 16384 + l.val < 524288 := (row_bounds s.val t.val l.val hs hN hl).1
  have hn : s.val * 524288 + (t.val * 16384 + l.val) < 4194304 := (row_bounds s.val t.val l.val hs hN hl).2
  funext k
  have hk : k.val < 5 := k.isLt
  have hr : 8 * k.val + s.val < 40 := by omega
  unfold blockRow
  refine (iblk1_apply m c t _ l hj).trans ?_
  refine (pack_apply _ k s (⟨t.val * 16384 + l.val, hj⟩ : Fin 524288) hr hn).trans ?_
  refine (rowOf_lt _ _ hn k).symm.trans ?_
  exact congrFun (congrArg (rowOf _) (by omega)) k

/-- So the sums over the rows of step t's blocks are that step's sums over the arguments' rows. -/
theorem block_iou (t : Fin cfg0.N) :
    ∑ s : Fin 8, ∑ l : Fin 16384, iouTerm (blockRow (iblk m c 0 t) s l) (blockRow (iblk m c 1 t) s l) = stepIou m c t.val := by
  unfold stepIou
  refine Finset.sum_congr rfl fun s _ => Finset.sum_congr rfl fun l _ => ?_
  rw [blockRow0, blockRow1]
theorem block_bce (t : Fin cfg0.N) :
    ∑ s : Fin 8, ∑ l : Fin 16384, bceTerm (blockRow (iblk m c 0 t) s l) (blockRow (iblk m c 1 t) s l) = stepBce m c t.val := by
  unfold stepBce
  refine Finset.sum_congr rfl fun s _ => Finset.sum_congr rfl fun l _ => ?_
  rw [blockRow0, blockRow1]

/-- At the first step of a run the two elements hold that step's sums; -/
theorem first_iou (t : Fin cfg0.N) (h0 : t.val % 16 = 0) : outsAt0 m c t.val t.isLt b00 = stepIou m c t.val := by
  rw [outsAt0_A m c t h0]
  refine (first_00 (F := Ideal) c (grid0.coords t) (ms0_0 t) (hs0_0 t) (ms0_1 t) (hs0_1 t) (ms0_2 t) (hs0_2 t)
    ((hcond0_0 t).mpr h0) (iblk m c 0 t) (iblk m c 1 t)).trans ?_
  refine (iouStep_eq (iblk m c 0 t) (iblk m c 1 t) zero11).trans ?_
  rw [block_iou]
  exact zeroW_add _
theorem first_bce (t : Fin cfg0.N) (h0 : t.val % 16 = 0) : outsAt0 m c t.val t.isLt b01 = stepBce m c t.val := by
  rw [outsAt0_A m c t h0]
  refine (first_01 (F := Ideal) c (grid0.coords t) (ms0_0 t) (hs0_0 t) (ms0_1 t) (hs0_1 t) (ms0_2 t) (hs0_2 t)
    ((hcond0_0 t).mpr h0) (iblk m c 0 t) (iblk m c 1 t)).trans ?_
  refine (bceStep_eq (iblk m c 0 t) (iblk m c 1 t) zero11).trans ?_
  rw [block_bce]
  exact zeroW_add _

/-- at any other step, what the step before left plus that step's sums. -/
theorem later_iou (t : Fin cfg0.N) (h0 : ¬t.val % 16 = 0) :
    outsAt0 m c t.val t.isLt b00
      = outsAt0 m c (t.val - 1) (Nat.lt_of_le_of_lt (Nat.sub_le _ _) t.isLt) b00 + stepIou m c t.val := by
  rw [outsAt0_B m c t h0]
  refine (later_00 (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))).trans ?_
  refine (iouStep_eq (iblk m c 0 t) (iblk m c 1 t) _).trans ?_
  rw [block_iou]
  exact congrArg (· + stepIou m c t.val)
    (congrArg (outsAt0 m c (t.val - 1) (Nat.lt_of_le_of_lt (Nat.sub_le _ _) t.isLt)) b00_eq.symm)
theorem later_bce (t : Fin cfg0.N) (h0 : ¬t.val % 16 = 0) :
    outsAt0 m c t.val t.isLt b01
      = outsAt0 m c (t.val - 1) (Nat.lt_of_le_of_lt (Nat.sub_le _ _) t.isLt) b01 + stepBce m c t.val := by
  rw [outsAt0_B m c t h0]
  refine (later_01 (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))).trans ?_
  refine (bceStep_eq (iblk m c 0 t) (iblk m c 1 t) _).trans ?_
  rw [block_bce]
  exact congrArg (· + stepBce m c t.val)
    (congrArg (outsAt0 m c (t.val - 1) (Nat.lt_of_le_of_lt (Nat.sub_le _ _) t.isLt)) b01_eq.symm)

/-- After the last step of run q the two elements hold the sums of the run's 16 steps. -/
theorem run_iou (q : ℕ) (h : 16 * q + 15 < cfg0.N) :
    outsAt0 m c (16 * q + 15) h b00 = ∑ g : Fin 16, stepIou m c (16 * q + g.val) :=
  Cert.LibRegroup.run_sum (ι := Unit) (N := cfg0.N) 16 (fun n hn _ => outsAt0 m c n hn b00) (fun n _ _ => stepIou m c n)
    (fun n hn _ hm => first_iou m c ⟨n, hn⟩ hm) (fun n hn _ hm => later_iou m c ⟨n + 1, hn⟩ hm) q () 15 (by omega) h
theorem run_bce (q : ℕ) (h : 16 * q + 15 < cfg0.N) :
    outsAt0 m c (16 * q + 15) h b01 = ∑ g : Fin 16, stepBce m c (16 * q + g.val) :=
  Cert.LibRegroup.run_sum (ι := Unit) (N := cfg0.N) 16 (fun n hn _ => outsAt0 m c n hn b01) (fun n _ _ => stepBce m c n)
    (fun n hn _ hm => first_bce m c ⟨n, hn⟩ hm) (fun n hn _ hm => later_bce m c ⟨n + 1, hn⟩ hm) q () 15 (by omega) h

/-- The output window's block index at point t is (t / 16, 0). -/
theorem index_out : ∀ t : Fin cfg0.N, win0_2.index t 0 = t.val / 16 ∧ win0_2.index t 1 = 0 :=
  (by decide +kernel : ∀ t : Fin grid0.N, win0_2.index t 0 = t.val / 16 ∧ win0_2.index t 1 = 0)

/-- The two points that write the block back write disjoint row blocks. -/
theorem flush_disjoint : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (by
    have h1 := (flush0_2 t).mp hf
    have h2 := (flush0_2 t').mp hf'
    have e : win0_2.index t 0 = win0_2.index t' 0 := congrFun h 0
    rw [(index_out t).1, (index_out t').1] at e
    apply Fin.ext
    omega)

/-- An element of the result array under the block of a point that writes back holds what that point's block held. -/
theorem result_at (t : Fin cfg0.N) (hf : (cfg0.win 2).flush t = true) (y : S8x128.Idx) (i : S16x128.Idx)
    (hi0 : (i 0).val = t.val / 16 * 8 + (y 0).val) (hi1 : (i 1).val = (y 1).val) :
    ((dats m 0 c).arrAt 2 cfg0.N : S16x128.Idx → EReal) i = outsAt0 m c t.val t.isLt y := by
  have hb := congrFun ((dats m 0 c).read_blk_arrAt_eq_flushed 2 flush_disjoint cfg0.N t t.isLt hf) y
  rw [View.read_apply] at hb
  have he : ((cfg0.win 2).blk t).view.emb y = i := by
    funext a
    apply Fin.ext
    match a with
    | ⟨0, _⟩ => show win0_2.index t 0 * 8 + 1 * (y 0).val = (i 0).val; rw [(index_out t).1]; omega
    | ⟨1, _⟩ => show win0_2.index t 1 * 128 + 1 * (y 1).val = (i 1).val; rw [(index_out t).2]; omega
  rw [he] at hb
  refine (show ((dats m 0 c).arrAt 2 cfg0.N : S16x128.Idx → EReal) i = (dats m 0 c).flushed 2 t y from hb).trans ?_
  show (cfg0.win 2).cut (grid0.coords t) ((dats m 0 c).after 2 t) y = _
  rw [after0_2]
  rfl

end Cert.KernelIdeal.Accumulate

end
-- ==== Proof.KernelValue.lean ====
/-
  What the kernel's program returns.

  After the region the host takes elements (0, 0) and (8, 0) of the [16, 128] result array — the two runs' box-loss
  totals — and adds them, likewise (0, 1) and (8, 1) for the objectness loss, divides both by 4194304 and combines them.
  The two runs' totals together are the sums over all 4194304 rows of the arguments (the specification's
  `digit_sum`), so the program returns the loss of the two totals over the rows of its arguments.
-/
import proofs.«124549_j10067403341969_2_alg».proof.Proof.Accumulate
import Idealize.ShloMosaic.Lib.StableHlo.Run

set_option maxRecDepth 16384

noncomputable section

open scoped BigOperators

namespace Cert.KernelIdeal.KernelValue

open Cert.KernelIdeal Cert.KernelIdeal.Gen Cert.KernelIdeal.Pieces Cert.KernelIdeal.Accumulate Cert.LossSpec
open Idealize.ShloMosaic Idealize.ShloMosaic.TcCoe Idealize.SL.Sem Idealize.ShloMosaic.ValueIdx Idealize.ShloMosaic.StableHlo
open Idealize.ShloMosaic.Pipeline (Dat)

/-- Element (r, q) of a [16, 128] array, cut out as a [1, 1] slice and flattened to a scalar. -/
theorem pick {α : Type} (W : S16x128.Idx → α) (off : Fin 2 → ℕ) (r : Fin 16) (q : Fin 128) (h0 : off 0 = r.val) (h1 : off 1 = q.val)
    (h : S16x128.Slices off S1x1) (h' : S1x1.ShapeCasts S_) (i : S_.Idx) :
    shapeCast S_ (extractStridedSlice S1x1 off W h) h' i = W (ix2 r q) := by
  refine (shapeCast_apply _ h' i (ix2 (0 : Fin 1) (0 : Fin 1)) ?_).trans ?_
  · rewrite [Shape.rowMajor_val_two]
    rfl
  exact extractStridedSlice_apply off W h _ (ix2 r q) (fun a => match a with
    | ⟨0, _⟩ => by show r.val = off 0 + 0; omega
    | ⟨1, _⟩ => by show q.val = off 1 + 0; omega)

/-- The host's last operations on four scalars: the loss from the two pairs' sums. -/
theorem tail_of (A B C D : S_.Idx → EReal) (a b c d : EReal) (hA : ∀ i, A i = a) (hB : ∀ i, B i = b) (hC : ∀ i, C i = c)
    (hD : ∀ i, D i = d) :
    addf (F := Ideal) (mulf (constant S_ .f32 0x3E4CCCCD#32) (Host.divf (addf A B) (constant S_ .f32 0x4A800000#32)))
        (Host.divf (addf C D) (constant S_ .f32 0x4A800000#32))
      = fun _ => lossOf (c + d) (a + b) := by
  funext i
  show Ideal.ofBits .f32 0x3E4CCCCD#32 * Ideal.div (A i + B i) (Ideal.ofBits .f32 0x4A800000#32)
    + Ideal.div (C i + D i) (Ideal.ofBits .f32 0x4A800000#32) = _
  rw [hA i, hB i, hC i, hD i]
  rfl

variable (m : (ℓ : Loc nD τ sig) → Buf (Elt Ideal) ℓ) (ρ : Dev nD → PrngReg)

/-- The two points that write the output block back. -/
abbrev t15 : Fin cfg0.N := ⟨16 * 0 + 15, by rw [show cfg0.N = 32 from N_0]; decide⟩
abbrev t31 : Fin cfg0.N := ⟨16 * 1 + 15, by rw [show cfg0.N = 32 from N_0]; decide⟩
theorem flush15 : (cfg0.win 2).flush t15 = true := (flush0_2 t15).mpr rfl
theorem flush31 : (cfg0.win 2).flush t31 = true := (flush0_2 t31).mpr rfl

/-- The [16, 128] array the region leaves on core c. -/
def outArr (c : Dev nD) : S16x128.Idx → EReal := (dats m 0 c).arrAt 2 cfg0.N

/-- The result array's two box-loss elements add up to the total over all rows, -/
theorem iou_total (c : Dev nD) :
    outArr m c (ix2 (0 : Fin 16) (0 : Fin 128)) + outArr m c (ix2 (8 : Fin 16) (0 : Fin 128))
      = iouTotal (rowsP m c) (rowsT m c) := by
  have r1 : outArr m c (ix2 (0 : Fin 16) (0 : Fin 128)) = outsAt0 m c (16 * 0 + 15) t15.isLt b00 :=
    result_at m c t15 flush15 b00 (ix2 (0 : Fin 16) (0 : Fin 128)) rfl rfl
  have r2 : outArr m c (ix2 (8 : Fin 16) (0 : Fin 128)) = outsAt0 m c (16 * 1 + 15) t31.isLt b00 :=
    result_at m c t31 flush31 b00 (ix2 (8 : Fin 16) (0 : Fin 128)) rfl rfl
  rw [r1, r2, run_iou m c 0 t15.isLt, run_iou m c 1 t31.isLt]
  exact digit_sum (fun n => iouTerm (rowsP m c n) (rowsT m c n))
/-- and its two objectness-loss elements likewise. -/
theorem bce_total (c : Dev nD) :
    outArr m c (ix2 (0 : Fin 16) (1 : Fin 128)) + outArr m c (ix2 (8 : Fin 16) (1 : Fin 128))
      = bceTotal (rowsP m c) (rowsT m c) := by
  have r1 : outArr m c (ix2 (0 : Fin 16) (1 : Fin 128)) = outsAt0 m c (16 * 0 + 15) t15.isLt b01 :=
    result_at m c t15 flush15 b01 (ix2 (0 : Fin 16) (1 : Fin 128)) rfl rfl
  have r2 : outArr m c (ix2 (8 : Fin 16) (1 : Fin 128)) = outsAt0 m c (16 * 1 + 15) t31.isLt b01 :=
    result_at m c t31 flush31 b01 (ix2 (8 : Fin 16) (1 : Fin 128)) rfl rfl
  rw [r1, r2, run_bce m c 0 t15.isLt, run_bce m c 1 t31.isLt]
  exact digit_sum (fun n => bceTerm (rowsP m c n) (rowsT m c n))

/-- What the program returns on core c: the loss of the two totals over the rows of the arguments as launched. -/
def result (c : Dev nD) : Buf (Elt Ideal) ((c : Thread nD τ).loc main_v20) :=
  fun _ => lossOf (iouTotal (rowsP m c) (rowsT m c)) (bceTotal (rowsP m c) (rowsT m c))

/-- The host operations after the region leave the result buffer at that loss. -/
theorem tail_eq (c : Dev nD) : Pipeline.afterTail₀ cfgs (dats m) 0 (V0 m) [hostOps1] c main_v20 = result m c := by
  unfold Pipeline.afterTail₀
  show StableHlo.after hostOps1 _ (Proc.devRef .tc main_v20) = _
  after_results
  have hW : (Pipeline.withArrays (cfgs 0).spec c (V0 m c) (fun w => (dats m 0 c).arrAt w (cfgs 0).N) (Proc.devRef .tc main_v6)
      : S16x128.Idx → EReal) = outArr m c :=
    Pipeline.withArrays_arr spec0 launch0.win.arr_inj c _ _ 2
  rw [hW]
  refine (tail_of _ _ _ _ _ _ _ _
    (fun i => pick (outArr m c) ![0, 1] 0 1 rfl rfl _ _ i)
    (fun i => pick (outArr m c) ![8, 1] 8 1 rfl rfl _ _ i)
    (fun i => pick (outArr m c) ![0, 0] 0 0 rfl rfl _ _ i)
    (fun i => pick (outArr m c) ![8, 0] 8 0 rfl rfl _ _ i)).trans ?_
  exact congrArg₂ (fun a b : EReal => fun _ : S_.Idx => lossOf a b) (iou_total m c) (bce_total m c)

/-- THE KERNEL'S RUN: every weakly fair execution terminates with the result buffer at the loss of the two totals and
    the two arguments as launched. -/
theorem run : θ_run defs (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.RefStages.lean ====
/-
  The reference, stage by stage, is the loss of the specification.

  It cuts the box columns out of the two [N, 5] arrays (columns 1 … 4), applies the logistic function to the first
  array's (spelt as 1 / (1 + exp(-x))), and then works on [N] vectors, one per column: every such vector at row n is
  the array at (n, column). The two vectors it finally sums hold, at row n, the box term and the objectness term of
  row n; a sum over the rows of a vector is the sum over n below N; and the last four scalar operations are the
  loss from the two totals.
-/
import proofs.«124549_j10067403341969_2_alg».proof.Proof.Gen.ReferenceIdeal.Read
import proofs.«124549_j10067403341969_2_alg».proof.Proof.LossSpec
import Idealize.ShloMosaic.Lib.ValueIdx
import Idealize.ShloMosaic.Lib.Pipeline.Value

set_option maxRecDepth 16384

noncomputable section

open scoped BigOperators

namespace Cert.ReferenceIdeal.RefStages

open Cert.ReferenceIdeal Cert.ReferenceIdeal.Gen Cert.ReferenceIdeal.Read Cert.LossSpec
open Idealize.ShloMosaic Idealize.ShloMosaic.ValueIdx

/-- Column k of an [N, C] array taken as an [N, 1] slice and flattened to [N]: at row n, the array at (n, k). -/
theorem col_of {α : Type} {C : ℕ} (y : (⟨2, ![4194304, C]⟩ : Shape).Idx → α) (k : Fin C) (off : Fin 2 → ℕ)
    (h0 : off 0 = 0) (h1 : off 1 = k.val) (h : (⟨2, ![4194304, C]⟩ : Shape).Slices off S4194304x1)
    (h' : S4194304x1.ShapeCasts S4194304) (n : Fin 4194304) :
    shapeCast S4194304 (extractStridedSlice S4194304x1 off y h) h' (ix1 n) = y (ix2 n k) := by
  refine (shapeCast_apply _ h' (ix1 n) (ix2 n (0 : Fin 1)) ?_).trans ?_
  · rewrite [Shape.rowMajor_val_two, Shape.rowMajor_val_one]
    show n.val * 1 + 0 = n.val
    omega
  exact extractStridedSlice_apply off y h _ (ix2 n k) (fun a => match a with
    | ⟨0, _⟩ => by show n.val = off 0 + n.val; omega
    | ⟨1, _⟩ => by show k.val = off 1 + 0; omega)

variable (x0 x1 : (⟨S4194304x5, .f32⟩ : BufTy).Contents (Elt Ideal))

/-- The logistic of the first array's box columns: at (n, k), the logistic function of the array at (n, k + 1). -/
theorem sig_at (n : Fin 4194304) (k : Fin 4) (hk : k.val + 1 < 5) :
    val_main_v6 (F := Ideal) x0 (ix2 n k) = Ideal.logistic (x0 (ix2 n (⟨k.val + 1, hk⟩ : Fin 5))) := by
  simp only [val_main_v6_apply, val_main_v5_apply, val_main_cst_0_apply, val_main_v4_apply, val_main_v3_apply,
    val_main_cst_apply, val_main_v2_apply, val_main_v1_apply, val_main_v0_apply]
  refine Eq.trans ?_ (logistic_eq _)
  refine congrArg (fun z => Ideal.div oneW (oneW + Ideal.exp (-(x0 z)))) ?_
  funext a
  match a with
  | ⟨0, _⟩ => rfl
  | ⟨1, _⟩ => exact Fin.ext (by show 1 + k.val = k.val + 1; omega)
/-- The second array's box columns: at (n, k), the array at (n, k + 1). -/
theorem tgt_at (n : Fin 4194304) (k : Fin 4) (hk : k.val + 1 < 5) :
    val_main_v7 (F := Ideal) x1 (ix2 n k) = x1 (ix2 n (⟨k.val + 1, hk⟩ : Fin 5)) := by
  rw [val_main_v7_apply]
  refine congrArg x1 ?_
  funext a
  match a with
  | ⟨0, _⟩ => rfl
  | ⟨1, _⟩ => exact Fin.ext (by show 1 + k.val = k.val + 1; omega)

/-! The column vectors: each is a column of the logistic array, or of the second array's box columns, or column 0 of an
    argument. -/
theorem c9 (n : Fin 4194304) : val_main_v9 (F := Ideal) x0 (ix1 n) = val_main_v6 (F := Ideal) x0 (ix2 n 2) := col_of _ 2 ![0, 2] rfl rfl _ _ n
theorem c11 (n : Fin 4194304) : val_main_v11 (F := Ideal) x0 (ix1 n) = val_main_v6 (F := Ideal) x0 (ix2 n 0) := col_of _ 0 ![0, 0] rfl rfl _ _ n
theorem c15 (n : Fin 4194304) : val_main_v15 (F := Ideal) x0 (ix1 n) = val_main_v6 (F := Ideal) x0 (ix2 n 3) := col_of _ 3 ![0, 3] rfl rfl _ _ n
theorem c17 (n : Fin 4194304) : val_main_v17 (F := Ideal) x0 (ix1 n) = val_main_v6 (F := Ideal) x0 (ix2 n 1) := col_of _ 1 ![0, 1] rfl rfl _ _ n
theorem c33 (n : Fin 4194304) : val_main_v33 (F := Ideal) x0 (ix1 n) = val_main_v6 (F := Ideal) x0 (ix2 n 2) := col_of _ 2 ![0, 2] rfl rfl _ _ n
theorem c35 (n : Fin 4194304) : val_main_v35 (F := Ideal) x0 (ix1 n) = val_main_v6 (F := Ideal) x0 (ix2 n 0) := col_of _ 0 ![0, 0] rfl rfl _ _ n
theorem c38 (n : Fin 4194304) : val_main_v38 (F := Ideal) x0 (ix1 n) = val_main_v6 (F := Ideal) x0 (ix2 n 2) := col_of _ 2 ![0, 2] rfl rfl _ _ n
theorem c40 (n : Fin 4194304) : val_main_v40 (F := Ideal) x0 (ix1 n) = val_main_v6 (F := Ideal) x0 (ix2 n 0) := col_of _ 0 ![0, 0] rfl rfl _ _ n
theorem c43 (n : Fin 4194304) : val_main_v43 (F := Ideal) x0 (ix1 n) = val_main_v6 (F := Ideal) x0 (ix2 n 1) := col_of _ 1 ![0, 1] rfl rfl _ _ n
theorem c45 (n : Fin 4194304) : val_main_v45 (F := Ideal) x0 (ix1 n) = val_main_v6 (F := Ideal) x0 (ix2 n 3) := col_of _ 3 ![0, 3] rfl rfl _ _ n
theorem c48 (n : Fin 4194304) : val_main_v48 (F := Ideal) x0 (ix1 n) = val_main_v6 (F := Ideal) x0 (ix2 n 1) := col_of _ 1 ![0, 1] rfl rfl _ _ n
theorem c50 (n : Fin 4194304) : val_main_v50 (F := Ideal) x0 (ix1 n) = val_main_v6 (F := Ideal) x0 (ix2 n 3) := col_of _ 3 ![0, 3] rfl rfl _ _ n
theorem c22 (n : Fin 4194304) : val_main_v22 (F := Ideal) x1 (ix1 n) = val_main_v7 (F := Ideal) x1 (ix2 n 2) := col_of _ 2 ![0, 2] rfl rfl _ _ n
theorem c24 (n : Fin 4194304) : val_main_v24 (F := Ideal) x1 (ix1 n) = val_main_v7 (F := Ideal) x1 (ix2 n 0) := col_of _ 0 ![0, 0] rfl rfl _ _ n
theorem c27 (n : Fin 4194304) : val_main_v27 (F := Ideal) x1 (ix1 n) = val_main_v7 (F := Ideal) x1 (ix2 n 3) := col_of _ 3 ![0, 3] rfl rfl _ _ n
theorem c29 (n : Fin 4194304) : val_main_v29 (F := Ideal) x1 (ix1 n) = val_main_v7 (F := Ideal) x1 (ix2 n 1) := col_of _ 1 ![0, 1] rfl rfl _ _ n
theorem c53 (n : Fin 4194304) : val_main_v53 (F := Ideal) x1 (ix1 n) = val_main_v7 (F := Ideal) x1 (ix2 n 0) := col_of _ 0 ![0, 0] rfl rfl _ _ n
theorem c56 (n : Fin 4194304) : val_main_v56 (F := Ideal) x1 (ix1 n) = val_main_v7 (F := Ideal) x1 (ix2 n 2) := col_of _ 2 ![0, 2] rfl rfl _ _ n
theorem c59 (n : Fin 4194304) : val_main_v59 (F := Ideal) x1 (ix1 n) = val_main_v7 (F := Ideal) x1 (ix2 n 1) := col_of _ 1 ![0, 1] rfl rfl _ _ n
theorem c62 (n : Fin 4194304) : val_main_v62 (F := Ideal) x1 (ix1 n) = val_main_v7 (F := Ideal) x1 (ix2 n 3) := col_of _ 3 ![0, 3] rfl rfl _ _ n
theorem c78 (n : Fin 4194304) : val_main_v78 (F := Ideal) x0 (ix1 n) = x0 (ix2 n 0) := col_of _ 0 ![0, 0] rfl rfl _ _ n
theorem c80 (n : Fin 4194304) : val_main_v80 (F := Ideal) x1 (ix1 n) = x1 (ix2 n 0) := col_of _ 0 ![0, 0] rfl rfl _ _ n

/-- The vector the first sum runs over holds, at row n, the box term of row n. -/
theorem iou_at (n : Fin 4194304) :
    val_main_v74 (F := Ideal) x0 x1 (ix1 n) = iouTerm (rowOf x0 n.val) (rowOf x1 n.val) := by
  simp only [val_main_v74_apply, val_main_v73_apply, val_main_cst_3_apply, val_main_v72_apply, val_main_v68_apply,
    val_main_call0_v0_apply, val_main_cst_2_apply, val_main_v71_apply, val_main_v70_apply, val_main_v69_apply,
    val_main_v66_apply, val_main_v67_apply, val_main_cst_1_apply, val_main_v64_apply, val_main_v65_apply,
    val_main_v57_apply, val_main_v54_apply, val_main_v63_apply, val_main_v60_apply, val_main_v36_apply,
    val_main_v41_apply, val_main_v46_apply, val_main_v51_apply, val_main_v31_apply, val_main_v25_apply,
    val_main_v30_apply, val_main_v20_apply, val_main_v13_apply, val_main_v19_apply, val_main_v12_apply,
    val_main_v18_apply, c9, c11, c15, c17, c33, c35, c38, c40, c43, c45, c48, c50, c22, c24, c27, c29, c53, c56, c59, c62]
  rw [sig_at x0 n 0 (by decide), sig_at x0 n 1 (by decide), sig_at x0 n 2 (by decide), sig_at x0 n 3 (by decide),
    tgt_at x1 n 0 (by decide), tgt_at x1 n 1 (by decide), tgt_at x1 n 2 (by decide), tgt_at x1 n 3 (by decide)]
  unfold iouTerm
  rw [rowOf_lt x0 n.val n.isLt 1, rowOf_lt x0 n.val n.isLt 2, rowOf_lt x0 n.val n.isLt 3, rowOf_lt x0 n.val n.isLt 4,
    rowOf_lt x1 n.val n.isLt 1, rowOf_lt x1 n.val n.isLt 2, rowOf_lt x1 n.val n.isLt 3, rowOf_lt x1 n.val n.isLt 4]
  rfl

/-- The vector the second sum runs over holds, at row n, the objectness term of row n. -/
theorem bce_at (n : Fin 4194304) :
    val_main_v89 (F := Ideal) x0 x1 (ix1 n) = bceTerm (rowOf x0 n.val) (rowOf x1 n.val) := by
  simp only [val_main_v89_apply, val_main_v84_apply, val_main_v88_apply, val_main_v87_apply, val_main_v86_apply,
    val_main_v85_apply, val_main_v82_apply, val_main_v83_apply, val_main_v81_apply, val_main_cst_6_apply, c78, c80]
  unfold bceTerm
  rw [rowOf_lt x0 n.val n.isLt 0, rowOf_lt x1 n.val n.isLt 0]
  show max (x0 (ix2 n 0)) zeroW - x0 (ix2 n 0) * x1 (ix2 n 0) + Ideal.log1p (Ideal.exp (-absE (x0 (ix2 n 0)))) = _
  rw [zeroW_sub]

/-- A sum over the rows of a vector is the sum over n below N. -/
theorem sum_rows {β : Type*} [AddCommMonoid β] (f : S4194304.Idx → β) (g : ℕ → β) (hfg : ∀ n : Fin 4194304, f (ix1 n) = g n.val) :
    ∑ j : S4194304.Idx, f j = ∑ n ∈ Finset.range 4194304, g n := by
  rw [Finset.sum_range]
  let e : S4194304.Idx ≃ Fin 4194304 :=
    { toFun := fun j => j 0, invFun := fun n => ix1 n, left_inv := fun j => (eq_ix1 j).symm, right_inv := fun _ => rfl }
  refine Fintype.sum_equiv e _ _ fun j => ?_
  rw [← hfg (e j)]
  exact congrArg f (eq_ix1 j)

/-- THE REFERENCE'S RESULT is the loss of the two totals over the rows of its arguments. -/
theorem result_eq : val_main_v93 (F := Ideal) x0 x1 = fun _ => lossOf (iouTotal (rowOf x0) (rowOf x1)) (bceTotal (rowOf x0) (rowOf x1)) := by
  funext i
  rw [val_main_v93_apply, val_main_v92_apply, val_main_cst_9_apply, val_main_v91_apply, val_main_v90_apply,
    val_main_cst_7_apply, val_main_cst_8_apply, val_main_v76_apply, val_main_v75_apply, val_main_cst_4_apply,
    val_main_cst_5_apply,
    sum_rows (val_main_v74 (F := Ideal) x0 x1) (fun n => iouTerm (rowOf x0 n) (rowOf x1 n)) (iou_at x0 x1),
    sum_rows (val_main_v89 (F := Ideal) x0 x1) (fun n => bceTerm (rowOf x0 n) (rowOf x1 n)) (bce_at x0 x1)]
  show Ideal.ofBits .f32 0x3E4CCCCD#32 * Ideal.div (zeroW + _) (Ideal.ofBits .f32 0x4A800000#32)
    + Ideal.div (zeroW + _) (Ideal.ofBits .f32 0x4A800000#32) = _
  rw [zeroW_add, zeroW_add]
  rfl

end Cert.ReferenceIdeal.RefStages

end
-- ==== Proof.lean ====
/-
  A detection loss over N = 4194304 rows, computed two ways, is one number.

  Each row of the two [N, 5] arrays carries an objectness logit and label (column 0) and two boxes (columns 1 … 4: four
  logits squashed by the logistic function, four targets). The loss is 0.2 times the mean over the rows of the binary
  cross-entropy of logit against label, plus the mean over the rows of one minus the boxes' intersection-over-union
  (the quotient taken as 0 where the overlap is negative).

  The reference forms the two [N] vectors of row terms and sums each in one reduction. The kernel's program transposes
  the arrays so that a row's five numbers sit in five row groups of a [40, N/8] array, walks it in 32 blocks of 16384
  columns, and in each block sums the row terms over the 8 rows and 16384 lanes into two running totals that restart
  every 16 blocks; the two restarts' totals are added on the host. Row n = s*524288 + t*16384 + l is met exactly once —
  in block t, row s, lane l — and sums of extended reals may be regrouped freely, so both programs divide the same two
  totals by N and combine them with the same constants. No finiteness of the inputs is used.

  The logistic function is one operation in the kernel and the expression 1 / (1 + exp(-x)) in the reference; the
  kernel writes 0 - |x| where the reference writes -|x|; at the ideal instance each pair is one function.

  The runs of the two kernel programs (every execution terminates, nothing faults, the arguments end unchanged) are the
  generated frame modules'; the reference's run and its stage-by-stage reading are the generated run and read modules'.
  The ideal pass rewrote nothing, so the idealization claim is trivially true.
-/
import proofs.«124549_j10067403341969_2_alg».proof.Defs
import proofs.«124549_j10067403341969_2_alg».proof.Proof.Gen.Kernel
import proofs.«124549_j10067403341969_2_alg».proof.Proof.Gen.Kernel.Frame
import proofs.«124549_j10067403341969_2_alg».proof.Proof.Gen.KernelIdeal
import proofs.«124549_j10067403341969_2_alg».proof.Proof.Gen.KernelIdeal.Frame
import proofs.«124549_j10067403341969_2_alg».proof.Proof.Gen.ReferenceIdeal
import proofs.«124549_j10067403341969_2_alg».proof.Proof.Gen.ReferenceIdeal.Run
import proofs.«124549_j10067403341969_2_alg».proof.Proof.Gen.ReferenceIdeal.Read
import proofs.«124549_j10067403341969_2_alg».proof.Proof.Gen.Pre_finite_inputs
import proofs.«124549_j10067403341969_2_alg».proof.Proof.KernelValue
import proofs.«124549_j10067403341969_2_alg».proof.Proof.RefStages
import Idealize.ShloMosaic.Adequacy
import Idealize.ShloMosaic.Init

noncomputable section

namespace Cert.Proof

open Idealize.ShloMosaic Idealize.SL.Sem

/-- The kernel's program as printed, and read at the ideal instance, run and leave their arguments unchanged. -/
theorem frame_kernel : Cert.frame_Kernel := fun m ρ _ => Cert.Kernel.Gen.frame m ρ
theorem frame_kernelIdeal : Cert.frame_KernelIdeal := fun m ρ _ => Cert.KernelIdeal.Gen.frame m ρ
/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the ideal reading. -/
theorem preserves : Cert.preserves_Kernel_KernelIdeal := trivial

/-- At the ideal instance both programs end with the loss of the two totals over the rows of arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, Cert.ReferenceIdeal.RefStages.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
